-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x64 : Shape := ⟨2, ![16384, 64]⟩
abbrev S16384x16384 : Shape := ⟨2, ![16384, 16384]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : IVec S16384 32) (main_arg1 : FVec F S16384x64 .f32) (main_arg2 : FVec F S16384x16384 .f32) : IVec S_ 1 :=
  let main_v0 : FVec F S16384x64 .f32 := Host.absf main_arg1
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg2
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  main_v8
-- ==== Kernel.lean ====
abbrev S16384 : Shape := ⟨1, ![16384]⟩
abbrev S16384x64 : Shape := ⟨2, ![16384, 64]⟩
abbrev S16384x16384 : Shape := ⟨2, ![16384, 16384]⟩
abbrev S_ : Shape := ⟨0, ![]⟩
abbrev S16384x1 : Shape := ⟨2, ![16384, 1]⟩
abbrev S2048x512 : Shape := ⟨2, ![2048, 512]⟩
abbrev S2048x64 : Shape := ⟨2, ![2048, 64]⟩
abbrev S2048x1 : Shape := ⟨2, ![2048, 1]⟩
abbrev S2048 : Shape := ⟨1, ![2048]⟩
abbrev S512x64 : Shape := ⟨2, ![512, 64]⟩

abbrev nBuf : Space → Nat
  | .hbm => 14
  | .vmem => 8
  | .smem => 0
  | _ => 0

abbrev bufTy : (tb : Table) → Fin (tcTables nBuf tb) → BufTy
  | .hbm, ⟨0, _⟩ => ⟨S16384, .i32⟩
  | .hbm, ⟨1, _⟩ => ⟨S16384x64, .f32⟩
  | .hbm, ⟨2, _⟩ => ⟨S16384x16384, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x64, .f32⟩
  | .hbm, ⟨12, _⟩ => ⟨S16384x64, .bf16⟩
  | .hbm, ⟨13, _⟩ => ⟨S16384x64, .f32⟩
  | .local _ .vmem, ⟨0, _⟩ => ⟨S2048x512, .f32⟩
  | .local _ .vmem, ⟨1, _⟩ => ⟨S2048x512, .f32⟩
  | .local _ .vmem, ⟨2, _⟩ => ⟨S16384x64, .bf16⟩
  | .local _ .vmem, ⟨3, _⟩ => ⟨S2048x64, .f32⟩
  | .local _ .vmem, ⟨4, _⟩ => ⟨S2048x64, .f32⟩
  | .local _ .vmem, ⟨5, _⟩ => ⟨S2048x1, .f32⟩
  | .local _ .vmem, ⟨6, _⟩ => ⟨S2048x1, .f32⟩
  | .local _ .vmem, ⟨7, _⟩ => ⟨S2048x64, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 2 → Nat :=
  let arg1 : BitVec 32 := BitVec.ofNat 32 (i 1).val
  let c512_i32 : BitVec 32 := 512#32
  let v22 : BitVec 32 := Scalar.muli arg1 c512_i32
  let v23 : BitVec 32 := v22
  let v24 : Index := Scalar.indexCast v23
  let c0_11 : Index := 0#32
  ![v24.toNat, 0]
def k0_cond2 (i : grid0.Coords) : BitVec 1 :=
  let arg1 : BitVec 32 := BitVec.ofNat 32 (i 1).val
  let c31_i32 : BitVec 32 := 31#32
  let v39 : BitVec 1 := Scalar.cmpi .eq arg1 c31_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  h_S512x64 : 0 < S512x64.numel
  shapeCasts_S512x64_S512x64 : S512x64.ShapeCasts S512x64
  broadcasts_S2048x1_S2048x64 : S2048x1.Broadcasts S2048x64
  gather_S16384x64_S16384x1_S16384x64_1_0_n_n_0_1_164_wf : GatherDims.WF S16384x64 S16384x1 S16384x64 [1] [0] [] [0] [] 1 ![1, 64]
  dot_S2048x512_S512x64_S2048x64_1_0_0_1_n_n_wf : DotDims.WF S2048x512 S512x64 S2048x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x16384.size a
  hwx0_0 : ∀ i : grid0.Coords, EltTy.bits .f32 = 32 ∨ (Rect.block (s := S16384x16384) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)

variable [Facts₀]

def gather_S16384x64_S16384x1_S16384x64_1_0_n_n_0_1_164 : GatherDims S16384x64 S16384x1 S16384x64 where
  offsetDims := [1]
  collapsedSliceDims := [0]
  operandBatchingDims := []
  startIndicesBatchingDims := []
  startIndexMap := [0]
  indexVectorDim := 1
  sliceSizes := ![1, 64]
  wf := gather_S16384x64_S16384x1_S16384x64_1_0_n_n_0_1_164_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384 : Shape := ⟨1, ![16384]⟩
abbrev S16384x64 : Shape := ⟨2, ![16384, 64]⟩
abbrev S16384x16384 : Shape := ⟨2, ![16384, 16384]⟩
abbrev S_ : Shape := ⟨0, ![]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x64, .f32⟩
  | .hbm, ⟨2, _⟩ => ⟨S16384x16384, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x16384, .f32⟩
  | .hbm, ⟨25, _⟩ => ⟨S16384x16384, .f32⟩
  | .hbm, ⟨26, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x16384_S16384_d1 : S16384x16384.ReducesTo [1] S16384
  h_S_ : 0 < S_.numel
  bcast_S16384x1_S16384x16384_0_1 : S16384x1.BroadcastsInDim S16384x16384 (![0, 1] : Fin 2 → Fin S16384x16384.rank)
  gather_S16384x64_S16384x1_S16384x64_1_0_n_n_0_1_164_wf : GatherDims.WF S16384x64 S16384x1 S16384x64 [1] [0] [] [0] [] 1 ![1, 64]
  dot_S16384x16384_S16384x64_S16384x64_1_0_0_1_n_n_wf : DotDims.WF S16384x16384 S16384x64 S16384x64 [1] [0] [0] [1] [] []

variable [Facts₀]

def gather_S16384x64_S16384x1_S16384x64_1_0_n_n_0_1_164 : GatherDims S16384x64 S16384x1 S16384x64 where
  offsetDims := [1]
  collapsedSliceDims := [0]
  operandBatchingDims := []
  startIndicesBatchingDims := []
  startIndexMap := [0]
  indexVectorDim := 1
  sliceSizes := ![1, 64]
  wf := gather_S16384x64_S16384x1_S16384x64_1_0_n_n_0_1_164_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KernelPieces.lean ====
/-
  What one grid point leaves in the three buffers the kernel carries from point to point — the running row maximum,
  the running denominator and the running numerator — and, at the last column tile of a row tile, in the output
  block: each as the body's arithmetic applied to the tile of logits the point was handed, the rows of the value
  matrix that the column tile names, and what the point before left in the three buffers. At the first column tile
  of a row tile the three buffers are first reset (to -∞, 0, 0), so nothing of the point before enters.
-/
import proofs.«167978_j78288663872186_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The 512 rows of the value matrix that the column tile at grid point `i` multiplies: rows 512·(i 1) … of the
    whole matrix, which stays resident. -/
def vchunk (i : grid0.Coords) (x1 : Vec F S16384x64 .bf16) : Vec F S512x64 .bf16 :=
  View.ld x1 (Rect.unit (s := S16384x64) (k0_off1 i) S512x64.size (k0_off1_inb i))

theorem sB0 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : ¬cond0_1 i) (x0 : Vec F S2048x512 .f32) (x1 : Vec F S16384x64 .bf16) (xs0 : Vec F S2048x1 .f32) (xs1 : Vec F S2048x1 .f32) (xs2 : Vec F S2048x64 .f32) :
    sout0_B_0 c i arg2 harg2 arg3 harg3 arg4 harg4 arg5 harg5 arg6 harg6 arg7 harg7 hc0 hc1 x0 x1 xs0 xs1 xs2 = k0_pay2 (k0_pay7 x0 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]

theorem sB1 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : ¬cond0_1 i) (x0 : Vec F S2048x512 .f32) (x1 : Vec F S16384x64 .bf16) (xs0 : Vec F S2048x1 .f32) (xs1 : Vec F S2048x1 .f32) (xs2 : Vec F S2048x64 .f32) :
    sout0_B_1 c i arg2 harg2 arg3 harg3 arg4 harg4 arg5 harg5 arg6 harg6 arg7 harg7 hc0 hc1 x0 x1 xs0 xs1 xs2 = k0_pay10 x0 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]

theorem sB2 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : ¬cond0_1 i) (x0 : Vec F S2048x512 .f32) (x1 : Vec F S16384x64 .bf16) (xs0 : Vec F S2048x1 .f32) (xs1 : Vec F S2048x1 .f32) (xs2 : Vec F S2048x64 .f32) :
    sout0_B_2 c i arg2 harg2 arg3 harg3 arg4 harg4 arg5 harg5 arg6 harg6 arg7 harg7 hc0 hc1 x0 x1 xs0 xs1 xs2 = k0_pay1 (k0_pay11 x0 xs0 xs0 (vchunk i x1) xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]
  rfl

theorem sC0 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : cond0_1 i) (x0 : Vec F S2048x512 .f32) (x1 : Vec F S16384x64 .bf16) (xs0 : Vec F S2048x1 .f32) (xs1 : Vec F S2048x1 .f32) (xs2 : Vec F S2048x64 .f32) :
    sout0_C_0 c i arg2 harg2 arg3 harg3 arg4 harg4 arg5 harg5 arg6 harg6 arg7 harg7 hc0 hc1 x0 x1 xs0 xs1 xs2 = k0_pay2 (k0_pay7 x0 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]

theorem sC1 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : cond0_1 i) (x0 : Vec F S2048x512 .f32) (x1 : Vec F S16384x64 .bf16) (xs0 : Vec F S2048x1 .f32) (xs1 : Vec F S2048x1 .f32) (xs2 : Vec F S2048x64 .f32) :
    sout0_C_1 c i arg2 harg2 arg3 harg3 arg4 harg4 arg5 harg5 arg6 harg6 arg7 harg7 hc0 hc1 x0 x1 xs0 xs1 xs2 = k0_pay10 x0 xs0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]

theorem sC2 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : cond0_1 i) (x0 : Vec F S2048x512 .f32) (x1 : Vec F S16384x64 .bf16) (xs0 : Vec F S2048x1 .f32) (xs1 : Vec F S2048x1 .f32) (xs2 : Vec F S2048x64 .f32) :
    sout0_C_2 c i arg2 harg2 arg3 harg3 arg4 harg4 arg5 harg5 arg6 harg6 arg7 harg7 hc0 hc1 x0 x1 xs0 xs1 xs2 = k0_pay1 (k0_pay11 x0 xs0 xs0 (vchunk i x1) xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]
  rfl

theorem oC2 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : cond0_1 i) (x0 : Vec F S2048x512 .f32) (x1 : Vec F S16384x64 .bf16) (xs0 : Vec F S2048x1 .f32) (xs1 : Vec F S2048x1 .f32) (xs2 : Vec F S2048x64 .f32) :
    out0_C_2 c i arg2 harg2 arg3 harg3 arg4 harg4 arg5 harg5 arg6 harg6 arg7 harg7 hc0 hc1 x0 x1 xs0 xs1 xs2
      = k0_pay3 (k0_pay1 (k0_pay11 x0 xs0 xs0 (vchunk i x1) xs2)) (k0_pay10 x0 xs0 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readCov_unit_zero arg5.view hz, View.readCov_unit_zero arg6.view hz, View.readCov_unit_zero arg7.view hz,
    View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]
  rfl

theorem sA0 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : cond0_0 i) (hc1 : ¬cond0_1 i) (x0 : Vec F S2048x512 .f32) (x1 : Vec F S16384x64 .bf16) :
    sout0_A_0 c i arg2 harg2 arg3 harg3 arg4 harg4 arg5 harg5 arg6 harg6 arg7 harg7 hc0 hc1 x0 x1 = k0_pay2 (k0_pay7 x0 k0_pay4) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S2048x1) hz]
  simp only [View.readCov_unit_zero arg5.view hz, View.readCov_unit_zero arg6.view hz, View.readCov_unit_zero arg7.view hz,
    View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]

theorem sA1 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : cond0_0 i) (hc1 : ¬cond0_1 i) (x0 : Vec F S2048x512 .f32) (x1 : Vec F S16384x64 .bf16) :
    sout0_A_1 c i arg2 harg2 arg3 harg3 arg4 harg4 arg5 harg5 arg6 harg6 arg7 harg7 hc0 hc1 x0 x1 = k0_pay10 x0 k0_pay4 k0_pay4 k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S2048x1) hz]
  simp only [View.readCov_unit_zero arg5.view hz, View.readCov_unit_zero arg6.view hz, View.readCov_unit_zero arg7.view hz,
    View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]

theorem sA2 (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : cond0_0 i) (hc1 : ¬cond0_1 i) (x0 : Vec F S2048x512 .f32) (x1 : Vec F S16384x64 .bf16) :
    sout0_A_2 c i arg2 harg2 arg3 harg3 arg4 harg4 arg5 harg5 arg6 harg6 arg7 harg7 hc0 hc1 x0 x1 = k0_pay1 (k0_pay11 x0 k0_pay4 k0_pay4 (vchunk i x1) k0_pay6) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S2048x64) hz]
  simp only [View.readCov_unit_zero arg5.view hz, View.readCov_unit_zero arg6.view hz, View.readCov_unit_zero arg7.view hz,
    View.readAt_eq_ld, harg2.read_unread, harg3.read_unread, harg5.read_unread, harg6.read_unread, harg7.read_unread,
    View.ld_unit_zero (S := S2048x512) hz, View.ld_unit_zero (S := S2048x1) hz, View.ld_unit_zero (S := S2048x64) hz]
  rfl

end Cert.KernelIdeal.Pieces

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibReadAt.lean ====
/-
  General reading lemmas over literal shapes, in the style of the library's layout lemmas: a vector made a column
  ([a] to [a, 1]); a column repeated along rows ([a, 1] to [a, b]); a one-axis minimum reduction at the ideal
  values as the fold of `min` over that axis's coordinates; and a total sum over a rank-three index type with two
  unit axes as the sum over its one long coordinate.
-/
import Idealize.ShloMosaic.PureOps.Ideal.Laws
import Idealize.ShloMosaic.Lib.Pipeline.Value
import Idealize.ShloMosaic.Lib.ValueIdx
import Idealize.ShloMosaic.Lib.ValueLayout

namespace Cert.LibReadAt

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A sum over the second axis of an `[a, b]` array, read at `i`, is the sum over the row's entries. -/
theorem sumAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (funext fun d => Fin.ext (by match d with | ⟨0, _⟩ => rfl | ⟨1, _⟩ => rfl))

/-- A sum over the first axis of an `[a, b]` array, read at `j`, is the sum over the column's entries. -/
theorem sumAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (funext fun d => Fin.ext (by match d with | ⟨0, _⟩ => rfl | ⟨1, _⟩ => rfl))

/-- A minimum over the second axis of an `[a, b]` array, read at `i`, is the fold of `min` over the row's entries. -/
theorem minAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  refine (multiReduction_minimumf_single src acc h hφ hacc (ix1 i)).trans ?_
  exact congrArg (fun f => Finset.fold min (Ideal.ofBits φ acc) f (Finset.univ : Finset (Fin b)))
    (funext fun k => congrArg src (funext fun d => Fin.ext (by match d with | ⟨0, _⟩ => rfl | ⟨1, _⟩ => rfl)))

/-- A minimum over the first axis of an `[a, b]` array, read at `j`, is the fold of `min` over the column's entries. -/
theorem minAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (j : Fin b) :
    multiReduction .minimumf [0] ⟨1, ![b]⟩ src acc h hφ hacc (ix1 j)
      = (Finset.univ : Finset (Fin a)).fold min (Ideal.ofBits φ acc) (fun k => src (ix2 k j)) := by
  refine (multiReduction_minimumf_single src acc h hφ hacc (ix1 j)).trans ?_
  exact congrArg (fun f => Finset.fold min (Ideal.ofBits φ acc) f (Finset.univ : Finset (Fin a)))
    (funext fun k => congrArg src (funext fun d => Fin.ext (by match d with | ⟨0, _⟩ => rfl | ⟨1, _⟩ => rfl)))

/-- The indices of a `[1, a, 1]` shape are its middle coordinates. -/
def midEquiv (a : ℕ) : Fin a ≃ (⟨3, ![1, a, 1]⟩ : Shape).Idx where
  toFun k := ix3 (0 : Fin 1) k (0 : Fin 1)
  invFun i := i 1
  left_inv _ := rfl
  right_inv i := funext fun d => match d with
    | ⟨0, _⟩ => Fin.ext (by have h : (i 0).val < 1 := (i 0).isLt; show (0 : ℕ) = (i 0).val; omega)
    | ⟨1, _⟩ => rfl
    | ⟨2, _⟩ => Fin.ext (by have h : (i 2).val < 1 := (i 2).isLt; show (0 : ℕ) = (i 2).val; omega)

/-- So a sum over them is the sum over the middle coordinate. -/
theorem sum_idx_1a1 {M : Type*} [AddCommMonoid M] {a : ℕ} (f : (⟨3, ![1, a, 1]⟩ : Shape).Idx → M) :
    ∑ i, f i = ∑ k : Fin a, f (ix3 (0 : Fin 1) k (0 : Fin 1)) :=
  (Equiv.sum_comp (midEquiv a) f).symm

/-- The indices of a `[1, 1, b]` shape are its last coordinates. -/
def lastEquiv (b : ℕ) : Fin b ≃ (⟨3, ![1, 1, b]⟩ : Shape).Idx where
  toFun k := ix3 (0 : Fin 1) (0 : Fin 1) k
  invFun i := i 2
  left_inv _ := rfl
  right_inv i := funext fun d => match d with
    | ⟨0, _⟩ => Fin.ext (by have h : (i 0).val < 1 := (i 0).isLt; show (0 : ℕ) = (i 0).val; omega)
    | ⟨1, _⟩ => Fin.ext (by have h : (i 1).val < 1 := (i 1).isLt; show (0 : ℕ) = (i 1).val; omega)
    | ⟨2, _⟩ => rfl

/-- So a sum over them is the sum over the last coordinate. -/
theorem sum_idx_11b {M : Type*} [AddCommMonoid M] {b : ℕ} (f : (⟨3, ![1, 1, b]⟩ : Shape).Idx → M) :
    ∑ i, f i = ∑ k : Fin b, f (ix3 (0 : Fin 1) (0 : Fin 1) k) :=
  (Equiv.sum_comp (lastEquiv b) f).symm

end Cert.LibReadAt
-- ==== Proof.LibMaxAxis.lean ====
/-
  A one-axis maximum reduction of an `[a, b]` array at the ideal values, read at a coordinate: the fold of `max`, from
  the accumulator's value, over the reduced axis's coordinates; the host's reduce with a maximum body over
  the LAST axis of an `[a, b, c]` array likewise. And the absorption that lets a second `max` with the
  fold's own starting value be dropped.
-/
import Idealize.ShloMosaic.PureOps.Ideal.Laws
import Idealize.ShloMosaic.Lib.ValueIdx

namespace Cert.LibMaxAxis

open Idealize.ShloMosaic Idealize.ShloMosaic.ValueIdx

/-- A maximum over the second axis of an `[a, b]` array, read at `i`, is the fold of `max` over the row's entries. -/
theorem maxAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  exact congrArg (fun f => Finset.fold max (Ideal.ofBits φ acc) f (Finset.univ : Finset (Fin b)))
    (funext fun k => congrArg src (funext fun d => Fin.ext (by match d with | ⟨0, _⟩ => rfl | ⟨1, _⟩ => rfl)))

/-- A maximum over the first axis of an `[a, b]` array, read at `j`, is the fold of `max` over the column's entries. -/
theorem maxAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) (fun k => src (ix2 k j)) := by
  refine (Ideal.multiReduction_maximumf_single src acc h hφ hacc (ix1 j)).trans ?_
  exact congrArg (fun f => Finset.fold max (Ideal.ofBits φ acc) f (Finset.univ : Finset (Fin a)))
    (funext fun k => congrArg src (funext fun d => Fin.ext (by match d with | ⟨0, _⟩ => rfl | ⟨1, _⟩ => rfl)))

/-- The reduced index (i, j) with `k` put back on the last axis is (i, j, k). -/
theorem lift_ix3_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The host's reduce with a maximum body over the last axis of an `[a, b, c]` array, read at (i, j): the fold of `max`
    from the initial value over the entries (i, j, ·). -/
theorem hostMaxLastAxis_apply {φ : FTy} {a b c : ℕ} (x : FVec Ideal ⟨3, ![a, b, c]⟩ φ) (init : FVec Ideal ⟨0, ![]⟩ φ)
    (h' : (⟨3, ![a, b, c]⟩ : Shape).ReducesTo [2] (⟨2, ![a, b]⟩ : Shape)) (h : (⟨3, ![a, b, c]⟩ : Shape).Reduces [2] (⟨2, ![a, b]⟩ : Shape))
    (hu : 0 < (⟨0, ![]⟩ : Shape).numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x init h' h hu]
  exact congrArg (fun f => Finset.fold max (init (Shape.Idx.first hu)) f (Finset.univ : Finset (Fin c)))
    (funext fun k => congrArg x (lift_ix3_last h i j k))

/-- A fold of `max` is at least its starting value, so taking `max` with that value again changes nothing. -/
theorem max_fold_max_self {ι : Type*} {α : Type*} [LinearOrder α] (s : Finset ι) (c : α) (f : ι → α) :
    max c (s.fold max c f) = s.fold max c f :=
  max_eq_right ((Finset.le_fold_max c).mpr (Or.inl le_rfl))

end Cert.LibMaxAxis
-- ==== Proof.LibRowKeepdims.lean ====
/-
  Row reductions written with keepdims, at the ideal values: a maximum (or a sum) over the second axis of an `[a, b]`
  array, made a column `[a, 1]` and repeated along the rows back to `[a, b]`, reads at (i, k) the fold of `max` over row
  i (the sum of row i), whatever k. Together they read a row softmax `exp (s - max) / Σ exp (s - max)` at an entry.
-/
import proofs.«167978_j78288663872186_2_alg».proof.Proof.LibReadAt
import proofs.«167978_j78288663872186_2_alg».proof.Proof.LibMaxAxis

namespace Cert.LibRowKeepdims

open Idealize.ShloMosaic Idealize.ShloMosaic.ValueIdx

/-- One entry of the softmax of a finite family `f`, written as programs compute it: with `m` the fold of `max` from `c`
    over the family, `exp (f k - m) / Σ_k' exp (f k' - m)`. -/
noncomputable def softmaxEntry {n : ℕ} (f : Fin n → EReal) (c : EReal) (k : Fin n) : EReal :=
  Ideal.div (Ideal.exp (f k - (Finset.univ : Finset (Fin n)).fold max c f))
    (∑ k' : Fin n, Ideal.exp (f k' - (Finset.univ : Finset (Fin n)).fold max c f))

/-- The row maximum, kept as a column and broadcast back, at (i, k): the fold of `max` over row i. -/
theorem rowMax_keepdims_apply {φ : FTy} {a b : ℕ} (s : FVec Ideal ⟨2, ![a, b]⟩ φ) (acc : BitVec φ.bits)
    (hr : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, b]⟩) (i : Fin a) (k : Fin b) :
    broadcastTo ⟨2, ![a, b]⟩ (shapeCast ⟨2, ![a, 1]⟩ (multiReduction .maximumf [1] ⟨1, ![a]⟩ s acc hr hφ hacc) hc) hb (ix2 i k)
      = (Finset.univ : Finset (Fin b)).fold max (Ideal.ofBits φ acc) (fun k' => s (ix2 i k')) :=
  (Cert.LibReadAt.broadcastTo_a1_ab_apply _ hb i k).trans
    ((Cert.LibReadAt.shapeCast_a_a1_apply _ hc i 0).trans (Cert.LibMaxAxis.maxAxis1_apply s acc hr hφ hacc i))

/-- The row sum, kept as a column and broadcast back, at (i, k): the sum of row i. -/
theorem rowSum_keepdims_apply {φ : FTy} {a b : ℕ} (s : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩) (i : Fin a) (k : Fin b) :
    broadcastTo ⟨2, ![a, b]⟩ (shapeCast ⟨2, ![a, 1]⟩ (multiReduction .add [1] ⟨1, ![a]⟩ s acc hr hφ hacc) hc) hb (ix2 i k)
      = ∑ k' : Fin b, s (ix2 i k') :=
  (Cert.LibReadAt.broadcastTo_a1_ab_apply _ hb i k).trans
    ((Cert.LibReadAt.shapeCast_a_a1_apply _ hc i 0).trans (Cert.LibReadAt.sumAxis1_apply s acc hr hφ hacc i))

/-- The softmax numerator `exp (s - rowmax s)` with the maximum kept as a column, at (i, k). -/
theorem expSubRowMax_apply {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (i : Fin a) (k : Fin b) :
    exp (subf s (broadcastTo ⟨2, ![a, b]⟩ (shapeCast ⟨2, ![a, 1]⟩ (multiReduction .maximumf [1] ⟨1, ![a]⟩ s acc hr hφ hacc) hc) hb)) (ix2 i k)
      = Ideal.exp (s (ix2 i k) - (Finset.univ : Finset (Fin b)).fold max (Ideal.ofBits .f32 acc) (fun k' => s (ix2 i k'))) :=
  congrArg (fun z => Ideal.exp (s (ix2 i k) - z)) (rowMax_keepdims_apply s acc hr hφ hacc hc hb i k)

/-- A row softmax written with keepdims reductions — the numerator `p = exp (s - rowmax s)` divided by its row sum —
    at (i, k): the softmax entry k of row i of `s`. -/
theorem softmaxRows_apply {a b : ℕ} (s : FVec Ideal ⟨2, ![a, b]⟩ .f32) (accM accS : BitVec 32)
    (hr : (⟨2, ![a, b]⟩ : Shape).Reduces [1] ⟨1, ![a]⟩) (hφM : FKind.Formats .f32) (haccM : accM = FKind.maximumf.neutral .f32 hφM)
    (hφS : FKind.Formats .f32) (haccS : accS = FKind.add.neutral .f32 hφS)
    (hc : (⟨1, ![a]⟩ : Shape).ShapeCasts ⟨2, ![a, 1]⟩) (hb : (⟨2, ![a, 1]⟩ : Shape).Broadcasts ⟨2, ![a, b]⟩) (i : Fin a) (k : Fin b) :
    divf (exp (subf s (broadcastTo ⟨2, ![a, b]⟩ (shapeCast ⟨2, ![a, 1]⟩ (multiReduction .maximumf [1] ⟨1, ![a]⟩ s accM hr hφM haccM) hc) hb)))
      (broadcastTo ⟨2, ![a, b]⟩ (shapeCast ⟨2, ![a, 1]⟩ (multiReduction .add [1] ⟨1, ![a]⟩
        (exp (subf s (broadcastTo ⟨2, ![a, b]⟩ (shapeCast ⟨2, ![a, 1]⟩ (multiReduction .maximumf [1] ⟨1, ![a]⟩ s accM hr hφM haccM) hc) hb)))
        accS hr hφS haccS) hc) hb) (ix2 i k)
      = softmaxEntry (fun k' => s (ix2 i k')) (Ideal.ofBits .f32 accM) k :=
  congrArg₂ Ideal.div (expSubRowMax_apply s accM hr hφM haccM hc hb i k)
    ((rowSum_keepdims_apply _ accS hr hφS haccS hc hb i k).trans
      (Finset.sum_congr rfl fun k' _ => expSubRowMax_apply s accM hr hφM haccM hc hb i k'))

end Cert.LibRowKeepdims
-- ==== Proof.PayloadAt.lean ====
/-
  The body's arithmetic read at one coordinate, on the extended reals. Row r of a tile carries a running maximum m,
  a running denominator l and, per output column d, a running numerator a. Handed the tile's row s (512 logits)
  and 512 rows of the value matrix, one point computes
    m' = max m (max_k s k)          α = exp (m - m')          p k = exp (s k - m')
    l' = α · l + Σ_k p k            a' d = α · a d + Σ_k p k · v k d
  and the last point of a row tile stores a' d / l'. Each line below is one of these at a coordinate.
-/
import proofs.«167978_j78288663872186_2_alg».proof.Proof.Gen.KernelIdeal.Skeleton
import proofs.«167978_j78288663872186_2_alg».proof.Proof.LibPlainMatmul
import proofs.«167978_j78288663872186_2_alg».proof.Proof.LibRowKeepdims
import Idealize.ShloMosaic.Lib.ValueIdx
import Idealize.ShloMosaic.Lib.Pipeline.Value

noncomputable section

namespace Cert.KernelIdeal.PayAt

open Cert.KernelIdeal Cert.KernelIdeal.Gen
open Idealize.ShloMosaic Idealize.ShloMosaic.ValueIdx

/-- The value the maximum reductions start from: the pattern of -∞. -/
abbrev negInf : EReal := Ideal.ofBits .f32 0xFF800000#32

/-- The stored numerator and maximum are the computed ones: a cast to the same shape changes nothing. -/
theorem pay1_eq {F : FTy → Type} [FloatOps F] (v32 : FVec F S2048x64 .f32) : k0_pay1 v32 = v32 := by
  unfold k0_pay1; exact shapeCast_self _ _
theorem pay2_eq {F : FTy → Type} [FloatOps F] (v7 : FVec F S2048x1 .f32) : k0_pay2 v7 = v7 := by
  unfold k0_pay2; exact shapeCast_self _ _

/-- m' = max m (max_k s k). -/
theorem pay7_at (v3 : Vec Ideal S2048x512 .f32) (v4 : Vec Ideal S2048x1 .f32) (r : Fin 2048) :
    k0_pay7 (F := Ideal) v3 v4 (ix2 r (0 : Fin 1))
      = max (v4 (ix2 r (0 : Fin 1))) ((Finset.univ : Finset (Fin 512)).fold max negInf fun k => v3 (ix2 r k)) := by
  unfold k0_pay7
  dsimp only
  rw [maximumf_apply, Cert.LibReadAt.shapeCast_a_a1_apply]
  exact congrArg (max _) (Cert.LibMaxAxis.maxAxis1_apply (φ := .f32) (a := 2048) (b := 512) v3 _ _ _ _ r)

/-- α = exp (m - m'). -/
theorem pay8_at (v3 : Vec Ideal S2048x512 .f32) (v4 v8 : Vec Ideal S2048x1 .f32) (r : Fin 2048) :
    k0_pay8 (F := Ideal) v3 v4 v8 (ix2 r (0 : Fin 1))
      = Ideal.exp (v8 (ix2 r (0 : Fin 1)) - k0_pay7 (F := Ideal) v3 v4 (ix2 r (0 : Fin 1))) := rfl

/-- p k = exp (s k - m'). -/
theorem pay9_at (v3 : Vec Ideal S2048x512 .f32) (v4 : Vec Ideal S2048x1 .f32) (r : Fin 2048) (k : Fin 512) :
    k0_pay9 (F := Ideal) v3 v4 (ix2 r k)
      = Ideal.exp (v3 (ix2 r k) - k0_pay7 (F := Ideal) v3 v4 (ix2 r (0 : Fin 1))) := by
  unfold k0_pay9
  show Ideal.exp (v3 (ix2 r k) - broadcastTo S2048x512 (k0_pay7 (F := Ideal) v3 v4) broadcasts_S2048x1_S2048x512 (ix2 r k)) = _
  rw [Cert.LibReadAt.broadcastTo_a1_ab_apply]

/-- l' = α · l + Σ_k p k. -/
theorem pay10_at (v3 : Vec Ideal S2048x512 .f32) (v4 v8 v14 : Vec Ideal S2048x1 .f32) (r : Fin 2048) :
    k0_pay10 (F := Ideal) v3 v4 v8 v14 (ix2 r (0 : Fin 1))
      = k0_pay8 (F := Ideal) v3 v4 v8 (ix2 r (0 : Fin 1)) * v14 (ix2 r (0 : Fin 1))
        + ∑ k : Fin 512, k0_pay9 (F := Ideal) v3 v4 (ix2 r k) := by
  unfold k0_pay10
  dsimp only
  rw [shapeCast_self, addf_apply, mulf_apply, Cert.LibReadAt.shapeCast_a_a1_apply]
  exact congrArg (_ + ·) (Cert.LibReadAt.sumAxis1_apply (φ := .f32) (a := 2048) (b := 512) (k0_pay9 (F := Ideal) v3 v4) _ _ _ _ r)

/-- a' d = α · a d + Σ_k p k · v k d. -/
theorem pay11_at (v3 : Vec Ideal S2048x512 .f32) (v4 v8 : Vec Ideal S2048x1 .f32) (v25 : Vec Ideal S512x64 .bf16)
    (v27 : Vec Ideal S2048x64 .f32) (r : Fin 2048) (d : Fin 64) :
    k0_pay11 (F := Ideal) v3 v4 v8 v25 v27 (ix2 r d)
      = k0_pay8 (F := Ideal) v3 v4 v8 (ix2 r (0 : Fin 1)) * v27 (ix2 r d)
        + ∑ k : Fin 512, k0_pay9 (F := Ideal) v3 v4 (ix2 r k) * v25 (ix2 k d) := by
  unfold k0_pay11
  rw [addf_apply, mulf_apply, Cert.LibReadAt.broadcastTo_a1_ab_apply, shapeCast_self]
  have e : dot_S2048x512_S512x64_S2048x64_1_0_0_1_n_n = DotDims.plain 2048 512 64 := rfl
  rw [e]
  refine congrArg (k0_pay8 (F := Ideal) v3 v4 v8 (ix2 r (0 : Fin 1)) * v27 (ix2 r d) + ·) ?_
  exact Cert.PlainMatmul.matmul_zero_apply 2048 512 64 (φ₁ := .bf16) (φ₂ := .bf16) none
    (truncf .bf16 (k0_pay9 (F := Ideal) v3 v4) bitsLt_bf16_f32) v25 r d

/-- The stored result a' d / l'. -/
theorem pay3_at (v42 : Vec Ideal S2048x64 .f32) (v43 : Vec Ideal S2048x1 .f32) (r : Fin 2048) (d : Fin 64) :
    k0_pay3 (F := Ideal) v42 v43 (ix2 r d) = Ideal.div (v42 (ix2 r d)) (v43 (ix2 r (0 : Fin 1))) := by
  unfold k0_pay3
  rw [divf_apply, Cert.LibReadAt.broadcastTo_a1_ab_apply]

/-- The three resets: -∞, 0 and 0. -/
theorem pay4_at (j : S2048x1.Idx) : k0_pay4 (F := Ideal) j = negInf := by
  unfold k0_pay4; rw [shapeCast_self]; rfl
theorem pay5_at (j : S2048x1.Idx) : k0_pay5 (F := Ideal) j = 0 := by
  unfold k0_pay5; rw [shapeCast_self]; exact Ideal.ofBits_zero_f32
theorem pay6_at (j : S2048x64.Idx) : k0_pay6 (F := Ideal) j = 0 := by
  unfold k0_pay6; rw [shapeCast_self]; exact Ideal.ofBits_zero_f32

/-- The starting value of the maximum reductions is -∞; in particular it is not +∞. -/
theorem negInf_eq_bot : negInf = ⊥ := by simp [Ideal.ofBits, Ideal.ieee]
theorem negInf_ne_top : negInf ≠ ⊤ := by rw [negInf_eq_bot]; exact bot_ne_top

/-- The new running maximum of row r: the old one against the maximum of the tile's row. -/
abbrev mnew (v3 : Vec Ideal S2048x512 .f32) (v4 : Vec Ideal S2048x1 .f32) (r : Fin 2048) : EReal :=
  max (v4 (ix2 r (0 : Fin 1))) ((Finset.univ : Finset (Fin 512)).fold max negInf fun k => v3 (ix2 r k))

/-- l' written out: exp (m - m') · l + Σ_k exp (s k - m'). -/
theorem pay10_full (v3 : Vec Ideal S2048x512 .f32) (v4 v8 v14 : Vec Ideal S2048x1 .f32) (r : Fin 2048) :
    k0_pay10 (F := Ideal) v3 v4 v8 v14 (ix2 r (0 : Fin 1))
      = Ideal.exp (v8 (ix2 r (0 : Fin 1)) - mnew v3 v4 r) * v14 (ix2 r (0 : Fin 1))
        + ∑ k : Fin 512, Ideal.exp (v3 (ix2 r k) - mnew v3 v4 r) := by
  rw [pay10_at, pay8_at, pay7_at]
  exact congrArg (_ + ·) (Finset.sum_congr rfl fun k _ => by rw [pay9_at, pay7_at])

/-- a' d written out: exp (m - m') · a d + Σ_k exp (s k - m') · v k d. -/
theorem pay11_full (v3 : Vec Ideal S2048x512 .f32) (v4 v8 : Vec Ideal S2048x1 .f32) (v25 : Vec Ideal S512x64 .bf16)
    (v27 : Vec Ideal S2048x64 .f32) (r : Fin 2048) (d : Fin 64) :
    k0_pay11 (F := Ideal) v3 v4 v8 v25 v27 (ix2 r d)
      = Ideal.exp (v8 (ix2 r (0 : Fin 1)) - mnew v3 v4 r) * v27 (ix2 r d)
        + ∑ k : Fin 512, Ideal.exp (v3 (ix2 r k) - mnew v3 v4 r) * v25 (ix2 k d) := by
  rw [pay11_at, pay8_at, pay7_at]
  exact congrArg (_ + ·) (Finset.sum_congr rfl fun k _ => by rw [pay9_at, pay7_at])

end Cert.KernelIdeal.PayAt

end
-- ==== Proof.LibSoftmaxArith.lean ====
/-
  A softmax-weighted sum accumulated block by block, over the reals (no program is mentioned here).

  Fix a sequence of logits x 0, x 1, … and a sequence of values v 0, v 1, …. For a shift M write
    den x M n = Σ_{k<n} exp (x k - M)        num x v M n = Σ_{k<n} exp (x k - M) · v k.
  `den_rescale` / `num_rescale`: changing the shift from M to M' multiplies both by exp (M - M').
  `den_step` / `num_step`: one step of a running accumulation — rescale what the first n terms gave, add the next b terms
  at the new shift — is den / num of the first n + b terms at the new shift; `den_first` / `num_first` start it from nothing.
  `quotient_shift`: num / den at ANY shift is the softmax-weighted sum Σ_k exp (x k - M') / den x M' n · v k at any other.
  `coe_sum`: a finite real sum read in the extended reals is the sum of its terms read there.
-/
import Idealize.ShloMosaic.PureOps.Ideal.Laws

noncomputable section

namespace Cert.OnlineSoftmax

open Finset

/-- The softmax denominator of the first n columns at shift M. -/
def den (x : ℕ → ℝ) (M : ℝ) (n : ℕ) : ℝ := ∑ k ∈ range n, Real.exp (x k - M)

/-- The softmax numerator of the first n columns at shift M, weighted by v. -/
def num (x v : ℕ → ℝ) (M : ℝ) (n : ℕ) : ℝ := ∑ k ∈ range n, Real.exp (x k - M) * v k

/-- A denominator over at least one term is positive. -/
theorem den_pos (x : ℕ → ℝ) (M : ℝ) {n : ℕ} (hn : 0 < n) : 0 < den x M n :=
  Finset.sum_pos (fun k _ => Real.exp_pos _) (nonempty_range_iff.mpr (Nat.pos_iff_ne_zero.mp hn))

/-- Moving the shift from M to M' multiplies the denominator by exp (M - M'). -/
theorem den_rescale (x : ℕ → ℝ) (M M' : ℝ) (n : ℕ) : Real.exp (M - M') * den x M n = den x M' n := by
  unfold den
  rw [Finset.mul_sum]
  refine Finset.sum_congr rfl fun k _ => ?_
  rw [← Real.exp_add]
  congr 1
  ring

/-- Moving the shift from M to M' multiplies the numerator by exp (M - M'). -/
theorem num_rescale (x v : ℕ → ℝ) (M M' : ℝ) (n : ℕ) : Real.exp (M - M') * num x v M n = num x v M' n := by
  unfold num
  rw [Finset.mul_sum]
  refine Finset.sum_congr rfl fun k _ => ?_
  rw [← mul_assoc, ← Real.exp_add]
  congr 2
  ring

/-- ONE STEP, the denominator: rescale what was accumulated over the first n columns, add the next b. -/
theorem den_step (x : ℕ → ℝ) (M M' : ℝ) (n b : ℕ) :
    Real.exp (M - M') * den x M n + ∑ k ∈ range b, Real.exp (x (n + k) - M') = den x M' (n + b) := by
  rw [den_rescale]
  unfold den
  rw [Finset.sum_range_add]

/-- ONE STEP, the numerator. -/
theorem num_step (x v : ℕ → ℝ) (M M' : ℝ) (n b : ℕ) :
    Real.exp (M - M') * num x v M n + ∑ k ∈ range b, Real.exp (x (n + k) - M') * v (n + k) = num x v M' (n + b) := by
  rw [num_rescale]
  unfold num
  rw [Finset.sum_range_add]

/-- THE FIRST STEP, the denominator: nothing accumulated yet, so the first b terms alone. -/
theorem den_first (x : ℕ → ℝ) (M' : ℝ) (b : ℕ) : ∑ k ∈ range b, Real.exp (x (0 + k) - M') = den x M' b := by
  unfold den
  refine Finset.sum_congr rfl fun k _ => ?_
  rw [Nat.zero_add]

/-- THE FIRST STEP, the numerator. -/
theorem num_first (x v : ℕ → ℝ) (M' : ℝ) (b : ℕ) :
    ∑ k ∈ range b, Real.exp (x (0 + k) - M') * v (0 + k) = num x v M' b := by
  unfold num
  refine Finset.sum_congr rfl fun k _ => ?_
  rw [Nat.zero_add]

/-- SHIFT INVARIANCE: the accumulated quotient at any shift M is the softmax-weighted sum written at any shift M'. -/
theorem quotient_shift (x v : ℕ → ℝ) (M M' : ℝ) {n : ℕ} (hn : 0 < n) :
    num x v M n / den x M n = ∑ k ∈ range n, Real.exp (x k - M') / den x M' n * v k := by
  rw [← num_rescale x v M' M n, ← den_rescale x M' M n, mul_div_mul_left _ _ (Real.exp_pos _).ne']
  unfold num
  rw [Finset.sum_div]
  refine Finset.sum_congr rfl fun k _ => ?_
  ring

/-- A finite sum of reals, read in the extended reals, is the sum of the terms read there. -/
theorem coe_sum {ι : Type*} (s : Finset ι) (f : ι → ℝ) : ((∑ k ∈ s, f k : ℝ) : EReal) = ∑ k ∈ s, (f k : EReal) := by
  classical
  refine Finset.induction_on s (by simp) ?_
  intro a s ha ih
  rw [Finset.sum_insert ha, Finset.sum_insert ha, EReal.coe_add, ih]

end Cert.OnlineSoftmax

end
-- ==== Proof.LibSoftmaxRow.lean ====
/-
  One row of a softmax-weighted sum accumulated block by block, on the extended reals (no program is mentioned here).

  A program carries, for a row with real logits x and real value columns v d, three extended reals after the first n
  columns: a running maximum mS, a running denominator lS and running numerators aS d. `RowInv x v n mS lS aS` says they
  are a real shift M, den x M n and num x (v d) M n (of the real-arithmetic module beside this one) — M is in fact the maximum
  so far, but only its being a real number is ever used.
  `RowInv.step`: from such a state, a block of b further real columns — new maximum m' = max mS (fold of max over the block
  from a start B ≠ +∞), rescaling by exp (mS - m'), the block's exponentials against m' added — gives the state for n + b.
  `RowInv.first`: from just-reset buffers (maximum at B, sums at zero) the first block gives the state for b, whatever the
  rescaling factor is, since it multiplies zeros.
  `RowInv.quotient`: at the end aS d / lS is `mix x (v d) n`, the softmax-weighted sum of the value column.
  `reference_row`: a row computed the direct way — exponentials against any real shift, each divided by (zero plus) their sum,
  weighted and summed — is the same `mix`. `fold_max_real`: a fold of max over real entries from a start below +∞ is a real.
-/
import proofs.«167978_j78288663872186_2_alg».proof.Proof.LibSoftmaxArith

noncomputable section

namespace Cert.OnlineSoftmax

open Finset Idealize.ShloMosaic

/-- A fold of `max` over at least one real entry, from a start below +∞, is a real. -/
theorem fold_max_real {n : ℕ} (hn : 0 < n) (B : EReal) (hB : B ≠ ⊤) (f : Fin n → EReal) (hf : ∀ k, ∃ r : ℝ, f k = (r : EReal)) :
    ∃ r : ℝ, (univ : Finset (Fin n)).fold max B f = (r : EReal) := by
  have hlt : (univ : Finset (Fin n)).fold max B f < ⊤ :=
    (Finset.fold_max_lt ⊤).mpr ⟨lt_top_iff_ne_top.mpr hB, fun k _ => by
      obtain ⟨r, hr⟩ := hf k; rw [hr]; exact EReal.coe_lt_top r⟩
  have hgt : ⊥ < (univ : Finset (Fin n)).fold max B f :=
    (Finset.lt_fold_max ⊥).mpr (Or.inr ⟨⟨0, hn⟩, mem_univ _, by
      obtain ⟨r, hr⟩ := hf ⟨0, hn⟩; rw [hr]; exact EReal.bot_lt_coe r⟩)
  exact ⟨_, (EReal.coe_toReal hlt.ne hgt.ne').symm⟩

/-- The exponentials of a block of real entries against a real shift, summed: the block's share of the denominator. -/
theorem block_den {b : ℕ} (x : ℕ → ℝ) (n : ℕ) (M' : ℝ) (xb : Fin b → EReal) (hx : ∀ k, xb k = ((x (n + k.val) : ℝ) : EReal)) :
    ∑ k : Fin b, Ideal.exp (xb k - (M' : EReal)) = ((∑ k ∈ range b, Real.exp (x (n + k) - M') : ℝ) : EReal) := by
  rw [coe_sum, ← Fin.sum_univ_eq_sum_range (fun k => ((Real.exp (x (n + k) - M') : ℝ) : EReal)) b]
  refine Finset.sum_congr rfl fun k _ => ?_
  rw [hx k, ← EReal.coe_sub, Ideal.exp_coe]

/-- … weighted by the block's rows of a value column: the block's share of a numerator. -/
theorem block_num {b : ℕ} (x v : ℕ → ℝ) (n : ℕ) (M' : ℝ) (xb vb : Fin b → EReal)
    (hx : ∀ k, xb k = ((x (n + k.val) : ℝ) : EReal)) (hv : ∀ k, vb k = ((v (n + k.val) : ℝ) : EReal)) :
    ∑ k : Fin b, Ideal.exp (xb k - (M' : EReal)) * vb k
      = ((∑ k ∈ range b, Real.exp (x (n + k) - M') * v (n + k) : ℝ) : EReal) := by
  rw [coe_sum, ← Fin.sum_univ_eq_sum_range (fun k => ((Real.exp (x (n + k) - M') * v (n + k) : ℝ) : EReal)) b]
  refine Finset.sum_congr rfl fun k _ => ?_
  rw [hx k, hv k, ← EReal.coe_sub, Ideal.exp_coe, ← EReal.coe_mul]

/-- WHAT THE THREE BUFFERS HOLD for one row after its first n columns. -/
def RowInv {D : ℕ} (x : ℕ → ℝ) (v : Fin D → ℕ → ℝ) (n : ℕ) (mS lS : EReal) (aS : Fin D → EReal) : Prop :=
  ∃ M : ℝ, mS = (M : EReal) ∧ lS = ((den x M n : ℝ) : EReal) ∧ ∀ d, aS d = ((num x (v d) M n : ℝ) : EReal)

/-- ONE STEP: a block of b further columns. -/
theorem RowInv.step {D b : ℕ} (hb : 0 < b) {x : ℕ → ℝ} {v : Fin D → ℕ → ℝ} {n : ℕ} (B : EReal) (hB : B ≠ ⊤)
    {mo lo : EReal} {ao : Fin D → EReal} (h : RowInv x v n mo lo ao)
    (xb : Fin b → EReal) (hx : ∀ k, xb k = ((x (n + k.val) : ℝ) : EReal))
    (vb : Fin b → Fin D → EReal) (hv : ∀ k d, vb k d = ((v d (n + k.val) : ℝ) : EReal)) :
    RowInv x v (n + b) (max mo ((univ : Finset (Fin b)).fold max B xb))
      (Ideal.exp (mo - max mo ((univ : Finset (Fin b)).fold max B xb)) * lo
        + ∑ k : Fin b, Ideal.exp (xb k - max mo ((univ : Finset (Fin b)).fold max B xb)))
      (fun d => Ideal.exp (mo - max mo ((univ : Finset (Fin b)).fold max B xb)) * ao d
        + ∑ k : Fin b, Ideal.exp (xb k - max mo ((univ : Finset (Fin b)).fold max B xb)) * vb k d) := by
  obtain ⟨M, hm, hl, ha⟩ := h
  obtain ⟨Mb, hMb⟩ := fold_max_real hb B hB xb (fun k => ⟨_, hx k⟩)
  have hmn : max mo ((univ : Finset (Fin b)).fold max B xb) = ((max M Mb : ℝ) : EReal) := by
    rw [hm, hMb]; exact (EReal.coe_strictMono.monotone.map_max).symm
  rw [hmn]
  refine ⟨max M Mb, rfl, ?_, fun d => ?_⟩
  · rw [hm, hl, ← EReal.coe_sub, Ideal.exp_coe, block_den x n _ xb hx, ← EReal.coe_mul, ← EReal.coe_add, den_step]
  · beta_reduce
    rw [hm, ha d, ← EReal.coe_sub, Ideal.exp_coe, block_num x (v d) n _ xb (fun k => vb k d) hx (fun k => hv k d),
      ← EReal.coe_mul, ← EReal.coe_add, num_step]

/-- THE FIRST STEP: the buffers were just reset — the maximum to the reductions' starting value, the sums to zero —,
    so whatever the rescaling factor α is, it multiplies zeros. -/
theorem RowInv.first {D b : ℕ} (hb : 0 < b) (x : ℕ → ℝ) (v : Fin D → ℕ → ℝ) (B : EReal) (hB : B ≠ ⊤) (α : EReal)
    (xb : Fin b → EReal) (hx : ∀ k, xb k = ((x (0 + k.val) : ℝ) : EReal))
    (vb : Fin b → Fin D → EReal) (hv : ∀ k d, vb k d = ((v d (0 + k.val) : ℝ) : EReal)) :
    RowInv x v b (max B ((univ : Finset (Fin b)).fold max B xb))
      (α * 0 + ∑ k : Fin b, Ideal.exp (xb k - max B ((univ : Finset (Fin b)).fold max B xb)))
      (fun d => α * 0 + ∑ k : Fin b, Ideal.exp (xb k - max B ((univ : Finset (Fin b)).fold max B xb)) * vb k d) := by
  obtain ⟨Mb, hMb⟩ := fold_max_real hb B hB xb (fun k => ⟨_, hx k⟩)
  have hmn : max B ((univ : Finset (Fin b)).fold max B xb) = (Mb : EReal) := by
    rw [max_eq_right ((Finset.le_fold_max B).mpr (Or.inl le_rfl)), hMb]
  rw [hmn]
  refine ⟨Mb, rfl, ?_, fun d => ?_⟩
  · rw [mul_zero, zero_add, block_den x 0 _ xb hx, den_first]
  · beta_reduce
    rw [mul_zero, zero_add, block_num x (v d) 0 _ xb (fun k => vb k d) hx (fun k => hv k d), num_first]

/-- The quotient does not depend on the shift. -/
theorem quotient_indep (x v : ℕ → ℝ) (M M' : ℝ) (n : ℕ) : num x v M n / den x M n = num x v M' n / den x M' n := by
  rw [← num_rescale x v M' M n, ← den_rescale x M' M n, mul_div_mul_left _ _ (Real.exp_pos _).ne']

/-- The softmax-weighted sum of a value column along a row, as a real: what both programs compute. -/
def mix (x v : ℕ → ℝ) (n : ℕ) : ℝ := num x v 0 n / den x 0 n

/-- AT THE END: numerator over denominator is the softmax-weighted sum. -/
theorem RowInv.quotient {D : ℕ} {x : ℕ → ℝ} {v : Fin D → ℕ → ℝ} {n : ℕ} (hn : 0 < n) {mS lS : EReal} {aS : Fin D → EReal}
    (h : RowInv x v n mS lS aS) (d : Fin D) : Ideal.div (aS d) lS = ((mix x (v d) n : ℝ) : EReal) := by
  obtain ⟨M, -, hl, ha⟩ := h
  rw [ha d, hl, Ideal.div_coe (den_pos x M hn).ne', ← EReal.coe_mul]
  exact congrArg (fun r : ℝ => (r : EReal)) (by rw [mul_one_div]; exact quotient_indep x (v d) M 0 n)

/-- A REFERENCE ROW: exponentials against a real shift Mr, each divided by (zero plus) their sum, weighted by a value
    column and summed — the same softmax-weighted sum. -/
theorem reference_row {N : ℕ} (hN : 0 < N) (x v : ℕ → ℝ) (Mr : ℝ) (Z : EReal) (hZ : Z = 0)
    (xr vr : Fin N → EReal) (hx : ∀ k, xr k = ((x (0 + k.val) : ℝ) : EReal)) (hv : ∀ k, vr k = ((v (0 + k.val) : ℝ) : EReal)) :
    ∑ k : Fin N, Ideal.div (Ideal.exp (xr k - (Mr : EReal))) (Z + ∑ k' : Fin N, Ideal.exp (xr k' - (Mr : EReal))) * vr k
      = ((mix x v N : ℝ) : EReal) := by
  have hd := (den_pos x Mr hN).ne'
  rw [hZ, zero_add, block_den x 0 Mr xr hx, den_first]
  have e : ∀ k : Fin N, Ideal.div (Ideal.exp (xr k - (Mr : EReal))) ((den x Mr N : ℝ) : EReal) * vr k
      = ((Real.exp (x k.val - Mr) / den x Mr N * v k.val : ℝ) : EReal) := fun k => by
    rw [hx k, hv k, Nat.zero_add, ← EReal.coe_sub, Ideal.exp_coe, Ideal.div_coe hd, ← EReal.coe_mul, ← EReal.coe_mul, mul_one_div]
  rw [Finset.sum_congr rfl fun k _ => e k,
    Fin.sum_univ_eq_sum_range (fun k => ((Real.exp (x k - Mr) / den x Mr N * v k : ℝ) : EReal)) N, ← coe_sum,
    ← quotient_shift x v Mr Mr hN]
  exact congrArg (fun r : ℝ => (r : EReal)) (quotient_indep x v Mr 0 N)

end Cert.OnlineSoftmax

end
-- ==== Proof.TileStep.lean ====
/-
  One grid point, one row: what the point leaves in row r of the three carried buffers is the row accumulation
  advanced by the point's 512 columns — from what the point before left, or, at the first column tile of a row tile,
  from the reset values. At the last column tile the stored output is the numerator over the denominator.
-/
import proofs.«167978_j78288663872186_2_alg».proof.Proof.KernelPieces
import proofs.«167978_j78288663872186_2_alg».proof.Proof.PayloadAt
import proofs.«167978_j78288663872186_2_alg».proof.Proof.LibSoftmaxRow

set_option maxRecDepth 16384

noncomputable section

namespace Cert.KernelIdeal.TileStep

open Cert.KernelIdeal Cert.KernelIdeal.Gen Cert.KernelIdeal.Pieces Cert.KernelIdeal.PayAt Cert.OnlineSoftmax
open Idealize.ShloMosaic Idealize.ShloMosaic.ValueIdx

/-- A point that is not the first of its row tile: row r of the three buffers after it, from row r before it. -/
theorem rowB (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : ¬cond0_1 i) (x0 : Vec Ideal S2048x512 .f32) (x1 : Vec Ideal S16384x64 .bf16) (xs0 xs1 : Vec Ideal S2048x1 .f32) (xs2 : Vec Ideal S2048x64 .f32)
    (x : ℕ → ℝ) (v : Fin 64 → ℕ → ℝ) (n : ℕ) (r : Fin 2048)
    (hx : ∀ k : Fin 512, x0 (ix2 r k) = ((x (n + k.val) : ℝ) : EReal))
    (hv : ∀ (k : Fin 512) (d : Fin 64), vchunk i x1 (ix2 k d) = ((v d (n + k.val) : ℝ) : EReal))
    (h : RowInv x v n (xs0 (ix2 r (0 : Fin 1))) (xs1 (ix2 r (0 : Fin 1))) (fun d => xs2 (ix2 r d))) :
    RowInv x v (n + 512) (sout0_B_0 (F := Ideal) c i arg2 harg2 arg3 harg3 arg4 harg4 arg5 harg5 arg6 harg6 arg7 harg7 hc0 hc1 x0 x1 xs0 xs1 xs2 (ix2 r (0 : Fin 1)))
      (sout0_B_1 (F := Ideal) c i arg2 harg2 arg3 harg3 arg4 harg4 arg5 harg5 arg6 harg6 arg7 harg7 hc0 hc1 x0 x1 xs0 xs1 xs2 (ix2 r (0 : Fin 1))) (fun d => sout0_B_2 (F := Ideal) c i arg2 harg2 arg3 harg3 arg4 harg4 arg5 harg5 arg6 harg6 arg7 harg7 hc0 hc1 x0 x1 xs0 xs1 xs2 (ix2 r d)) := by
  have e0 : sout0_B_0 (F := Ideal) c i arg2 harg2 arg3 harg3 arg4 harg4 arg5 harg5 arg6 harg6 arg7 harg7 hc0 hc1 x0 x1 xs0 xs1 xs2 (ix2 r (0 : Fin 1)) = mnew x0 xs0 r := by rw [sB0, pay2_eq, pay7_at]
  have e1 : sout0_B_1 (F := Ideal) c i arg2 harg2 arg3 harg3 arg4 harg4 arg5 harg5 arg6 harg6 arg7 harg7 hc0 hc1 x0 x1 xs0 xs1 xs2 (ix2 r (0 : Fin 1))
      = Ideal.exp (xs0 (ix2 r (0 : Fin 1)) - mnew x0 xs0 r) * xs1 (ix2 r (0 : Fin 1))
        + ∑ k : Fin 512, Ideal.exp (x0 (ix2 r k) - mnew x0 xs0 r) := by rw [sB1, pay10_full]
  have e2 : (fun d => sout0_B_2 (F := Ideal) c i arg2 harg2 arg3 harg3 arg4 harg4 arg5 harg5 arg6 harg6 arg7 harg7 hc0 hc1 x0 x1 xs0 xs1 xs2 (ix2 r d))
      = fun d => Ideal.exp (xs0 (ix2 r (0 : Fin 1)) - mnew x0 xs0 r) * xs2 (ix2 r d)
        + ∑ k : Fin 512, Ideal.exp (x0 (ix2 r k) - mnew x0 xs0 r) * vchunk i x1 (ix2 k d) :=
    funext fun d => by rw [sB2, pay1_eq, pay11_full]
  rw [e0, e1, e2]
  exact RowInv.step (by decide) negInf negInf_ne_top h (fun k => x0 (ix2 r k)) hx (fun k d => vchunk i x1 (ix2 k d)) hv

/-- A point that is not the first of its row tile (here the last): row r of the three buffers after it, from row r before it. -/
theorem rowC (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : cond0_1 i) (x0 : Vec Ideal S2048x512 .f32) (x1 : Vec Ideal S16384x64 .bf16) (xs0 xs1 : Vec Ideal S2048x1 .f32) (xs2 : Vec Ideal S2048x64 .f32)
    (x : ℕ → ℝ) (v : Fin 64 → ℕ → ℝ) (n : ℕ) (r : Fin 2048)
    (hx : ∀ k : Fin 512, x0 (ix2 r k) = ((x (n + k.val) : ℝ) : EReal))
    (hv : ∀ (k : Fin 512) (d : Fin 64), vchunk i x1 (ix2 k d) = ((v d (n + k.val) : ℝ) : EReal))
    (h : RowInv x v n (xs0 (ix2 r (0 : Fin 1))) (xs1 (ix2 r (0 : Fin 1))) (fun d => xs2 (ix2 r d))) :
    RowInv x v (n + 512) (sout0_C_0 (F := Ideal) c i arg2 harg2 arg3 harg3 arg4 harg4 arg5 harg5 arg6 harg6 arg7 harg7 hc0 hc1 x0 x1 xs0 xs1 xs2 (ix2 r (0 : Fin 1)))
      (sout0_C_1 (F := Ideal) c i arg2 harg2 arg3 harg3 arg4 harg4 arg5 harg5 arg6 harg6 arg7 harg7 hc0 hc1 x0 x1 xs0 xs1 xs2 (ix2 r (0 : Fin 1))) (fun d => sout0_C_2 (F := Ideal) c i arg2 harg2 arg3 harg3 arg4 harg4 arg5 harg5 arg6 harg6 arg7 harg7 hc0 hc1 x0 x1 xs0 xs1 xs2 (ix2 r d)) := by
  have e0 : sout0_C_0 (F := Ideal) c i arg2 harg2 arg3 harg3 arg4 harg4 arg5 harg5 arg6 harg6 arg7 harg7 hc0 hc1 x0 x1 xs0 xs1 xs2 (ix2 r (0 : Fin 1)) = mnew x0 xs0 r := by rw [sC0, pay2_eq, pay7_at]
  have e1 : sout0_C_1 (F := Ideal) c i arg2 harg2 arg3 harg3 arg4 harg4 arg5 harg5 arg6 harg6 arg7 harg7 hc0 hc1 x0 x1 xs0 xs1 xs2 (ix2 r (0 : Fin 1))
      = Ideal.exp (xs0 (ix2 r (0 : Fin 1)) - mnew x0 xs0 r) * xs1 (ix2 r (0 : Fin 1))
        + ∑ k : Fin 512, Ideal.exp (x0 (ix2 r k) - mnew x0 xs0 r) := by rw [sC1, pay10_full]
  have e2 : (fun d => sout0_C_2 (F := Ideal) c i arg2 harg2 arg3 harg3 arg4 harg4 arg5 harg5 arg6 harg6 arg7 harg7 hc0 hc1 x0 x1 xs0 xs1 xs2 (ix2 r d))
      = fun d => Ideal.exp (xs0 (ix2 r (0 : Fin 1)) - mnew x0 xs0 r) * xs2 (ix2 r d)
        + ∑ k : Fin 512, Ideal.exp (x0 (ix2 r k) - mnew x0 xs0 r) * vchunk i x1 (ix2 k d) :=
    funext fun d => by rw [sC2, pay1_eq, pay11_full]
  rw [e0, e1, e2]
  exact RowInv.step (by decide) negInf negInf_ne_top h (fun k => x0 (ix2 r k)) hx (fun k d => vchunk i x1 (ix2 k d)) hv

/-- At the last column tile the output block's row r holds the numerators over the denominator, as just left. -/
theorem outC (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : ¬cond0_0 i) (hc1 : cond0_1 i) (x0 : Vec Ideal S2048x512 .f32) (x1 : Vec Ideal S16384x64 .bf16) (xs0 xs1 : Vec Ideal S2048x1 .f32) (xs2 : Vec Ideal S2048x64 .f32) (r : Fin 2048) (d : Fin 64) :
    out0_C_2 (F := Ideal) c i arg2 harg2 arg3 harg3 arg4 harg4 arg5 harg5 arg6 harg6 arg7 harg7 hc0 hc1 x0 x1 xs0 xs1 xs2 (ix2 r d)
      = Ideal.div (sout0_C_2 (F := Ideal) c i arg2 harg2 arg3 harg3 arg4 harg4 arg5 harg5 arg6 harg6 arg7 harg7 hc0 hc1 x0 x1 xs0 xs1 xs2 (ix2 r d)) (sout0_C_1 (F := Ideal) c i arg2 harg2 arg3 harg3 arg4 harg4 arg5 harg5 arg6 harg6 arg7 harg7 hc0 hc1 x0 x1 xs0 xs1 xs2 (ix2 r (0 : Fin 1))) := by
  rw [oC2, pay3_at, sC2, sC1]

/-- The first point of a row tile: the buffers are reset, then advanced by the first 512 columns. -/
theorem rowA (c : Dev nD) (i : grid0.Coords) (arg2 : Memref sig .tc .vmem S2048x512 .f32) (harg2 : arg2.IsWhole) (arg3 : Memref sig .tc .vmem S16384x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (hc0 : cond0_0 i) (hc1 : ¬cond0_1 i) (x0 : Vec Ideal S2048x512 .f32) (x1 : Vec Ideal S16384x64 .bf16)
    (x : ℕ → ℝ) (v : Fin 64 → ℕ → ℝ) (r : Fin 2048)
    (hx : ∀ k : Fin 512, x0 (ix2 r k) = ((x (0 + k.val) : ℝ) : EReal))
    (hv : ∀ (k : Fin 512) (d : Fin 64), vchunk i x1 (ix2 k d) = ((v d (0 + k.val) : ℝ) : EReal)) :
    RowInv x v 512 (sout0_A_0 (F := Ideal) c i arg2 harg2 arg3 harg3 arg4 harg4 arg5 harg5 arg6 harg6 arg7 harg7 hc0 hc1 x0 x1 (ix2 r (0 : Fin 1)))
      (sout0_A_1 (F := Ideal) c i arg2 harg2 arg3 harg3 arg4 harg4 arg5 harg5 arg6 harg6 arg7 harg7 hc0 hc1 x0 x1 (ix2 r (0 : Fin 1))) (fun d => sout0_A_2 (F := Ideal) c i arg2 harg2 arg3 harg3 arg4 harg4 arg5 harg5 arg6 harg6 arg7 harg7 hc0 hc1 x0 x1 (ix2 r d)) := by
  have e0 : sout0_A_0 (F := Ideal) c i arg2 harg2 arg3 harg3 arg4 harg4 arg5 harg5 arg6 harg6 arg7 harg7 hc0 hc1 x0 x1 (ix2 r (0 : Fin 1))
      = max negInf ((Finset.univ : Finset (Fin 512)).fold max negInf fun k => x0 (ix2 r k)) := by
    rw [sA0, pay2_eq, pay7_at, pay4_at]
  have e1 : sout0_A_1 (F := Ideal) c i arg2 harg2 arg3 harg3 arg4 harg4 arg5 harg5 arg6 harg6 arg7 harg7 hc0 hc1 x0 x1 (ix2 r (0 : Fin 1))
      = Ideal.exp (negInf - max negInf ((Finset.univ : Finset (Fin 512)).fold max negInf fun k => x0 (ix2 r k))) * 0
        + ∑ k : Fin 512, Ideal.exp (x0 (ix2 r k) - max negInf ((Finset.univ : Finset (Fin 512)).fold max negInf fun k => x0 (ix2 r k))) := by
    rw [sA1, pay10_full]
    simp only [mnew, pay4_at, pay5_at]
  have e2 : (fun d => sout0_A_2 (F := Ideal) c i arg2 harg2 arg3 harg3 arg4 harg4 arg5 harg5 arg6 harg6 arg7 harg7 hc0 hc1 x0 x1 (ix2 r d))
      = fun d => Ideal.exp (negInf - max negInf ((Finset.univ : Finset (Fin 512)).fold max negInf fun k => x0 (ix2 r k))) * 0
        + ∑ k : Fin 512, Ideal.exp (x0 (ix2 r k) - max negInf ((Finset.univ : Finset (Fin 512)).fold max negInf fun k => x0 (ix2 r k))) * vchunk i x1 (ix2 k d) :=
    funext fun d => by
      rw [sA2, pay1_eq, pay11_full]
      simp only [mnew, pay4_at, pay6_at]
  rw [e0, e1, e2]
  exact RowInv.first (by decide) x v negInf negInf_ne_top _ (fun k => x0 (ix2 r k)) hx (fun k d => vchunk i x1 (ix2 k d)) hv

end Cert.KernelIdeal.TileStep

end
-- ==== Proof.SoftmaxSpec.lean ====
/-
  THE SPECIFICATION. Given a 16384 × 16384 array of logits T and a 16384 × 64 array of values W on the extended reals,
  entry (i, d) of the result is the softmax of row i of T, weighted over column d of W:
      Σ_k exp (T i k) / (Σ_k' exp (T i k')) · W k d,
  a real number whenever T and W hold reals. The row and the column are read off the arrays as real sequences
  (indexed by ℕ, zero past the end) so that blocks of columns append by adding offsets.
-/
import proofs.«167978_j78288663872186_2_alg».proof.Proof.LibSoftmaxRow
import Idealize.ShloMosaic.Lib.ValueIdx

noncomputable section

namespace Cert.SoftmaxSpec

open Idealize.ShloMosaic Idealize.ShloMosaic.ValueIdx Cert.OnlineSoftmax

/-- The logits' shape and the values' shape. -/
abbrev ST : Shape := ⟨2, ![16384, 16384]⟩
abbrev SW : Shape := ⟨2, ![16384, 64]⟩

/-- Every entry is a real: neither infinity. -/
def IsFinite {S : Shape} (A : S.Idx → EReal) : Prop := ∀ j, A j ≠ ⊤ ∧ A j ≠ ⊥

/-- Row i of the logits as a real sequence. -/
def xrow (T : ST.Idx → EReal) (i : Fin 16384) (k : ℕ) : ℝ := if h : k < 16384 then (T (ix2 i ⟨k, h⟩)).toReal else 0

/-- Column d of the values as a real sequence. -/
def vcol (W : SW.Idx → EReal) (d : Fin 64) (k : ℕ) : ℝ := if h : k < 16384 then (W (ix2 ⟨k, h⟩ d)).toReal else 0

theorem T_at {T : ST.Idx → EReal} (hT : IsFinite T) (i : Fin 16384) (k : ℕ) (h : k < 16384) :
    T (ix2 i ⟨k, h⟩) = ((xrow T i k : ℝ) : EReal) := by
  unfold xrow; rw [dif_pos h]; exact (EReal.coe_toReal (hT _).1 (hT _).2).symm

theorem W_at {W : SW.Idx → EReal} (hW : IsFinite W) (d : Fin 64) (k : ℕ) (h : k < 16384) :
    W (ix2 ⟨k, h⟩ d) = ((vcol W d k : ℝ) : EReal) := by
  unfold vcol; rw [dif_pos h]; exact (EReal.coe_toReal (hW _).1 (hW _).2).symm

/-- THE RESULT, entry by entry. -/
def G (T : ST.Idx → EReal) (W : SW.Idx → EReal) : SW.Idx → EReal :=
  fun j => ((mix (xrow T ⟨(j 0).val, idx2_lt0 j⟩) (vcol W ⟨(j 1).val, idx2_lt1 j⟩) 16384 : ℝ) : EReal)

theorem G_at (T : ST.Idx → EReal) (W : SW.Idx → EReal) (i : Fin 16384) (d : Fin 64) :
    G T W (ix2 i d) = ((mix (xrow T i) (vcol W d) 16384 : ℝ) : EReal) := rfl

end Cert.SoftmaxSpec

end
-- ==== Proof.KernelBlocks.lean ====
/-
  Where a grid point's blocks sit in the arrays. The grid is 8 row tiles by 32 column tiles, point t = 32·I + j. Its tile of
  logits is rows 2048·I … and columns 512·j … of the logits; the value matrix stays whole, and the point multiplies its rows
  512·j …; the output block is rows 2048·I … of the result, written back after the last column tile (j = 31) only. The eight
  such points' blocks cover the result.
-/
import proofs.«167978_j78288663872186_2_alg».proof.Proof.KernelPieces
import proofs.«167978_j78288663872186_2_alg».proof.Proof.SoftmaxSpec
import proofs.«167978_j78288663872186_2_alg».proof.Proof.Gen.KernelIdeal.Value
import Idealize.ShloMosaic.Lib.Pipeline.Value

set_option maxRecDepth 16384

noncomputable section

namespace Cert.KernelIdeal.Blocks

open Cert.KernelIdeal Cert.KernelIdeal.Gen Cert.KernelIdeal.Pieces Cert.SoftmaxSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The logits and the value matrix as the region finds them. -/
abbrev Tm (c : Dev nD) : ST.Idx → EReal := V m c main_arg2
abbrev Wm (c : Dev nD) : SW.Idx → EReal := V m c main_v7

theorem lt256 (t : Fin cfg0.N) : t.val < 256 := lt_of_lt_of_eq t.isLt (show cfg0.N = 256 from N_0)

/-- Row r of point t's tiles is row 2048·(t / 32) + r of the arrays; column k of its tile of logits is column 512·(t % 32) + k. -/
def tileRow (t : Fin cfg0.N) (r : Fin 2048) : Fin 16384 :=
  ⟨2048 * (t.val / 32) + r.val, by have := lt256 t; have := r.isLt; omega⟩
def tileCol (t : Fin cfg0.N) (k : Fin 512) : Fin 16384 :=
  ⟨512 * (t.val % 32) + k.val, by have := k.isLt; omega⟩

/-- The printed index maps and the offset of the value rows, decided over the grid. -/
theorem idx_facts : ∀ t : Fin cfg0.N,
    win0_0.index t (0 : Fin 2) = t.val / 32 ∧ win0_0.index t (1 : Fin 2) = t.val % 32
    ∧ win0_1.index t (0 : Fin 2) = 0 ∧ win0_1.index t (1 : Fin 2) = 0
    ∧ win0_2.index t (0 : Fin 2) = t.val / 32 ∧ win0_2.index t (1 : Fin 2) = 0
    ∧ k0_off1 (grid0.coords t) (0 : Fin 2) = 512 * (t.val % 32) ∧ k0_off1 (grid0.coords t) (1 : Fin 2) = 0 :=
  (by decide +kernel : ∀ t : Fin grid0.N, _)

/-- The tile of logits at (r, k). -/
theorem iblk0_at (c : Dev nD) (t : Fin cfg0.N) (r : Fin 2048) (k : Fin 512) :
    (iblk m c 0 t : Vec Ideal S2048x512 .f32) (ix2 r k) = Tm m c (ix2 (tileRow t r) (tileCol t k)) := by
  obtain ⟨e0, e1, -⟩ := idx_facts t
  unfold iblk
  rw [View.read_apply]
  show Tm m c _ = Tm m c _
  refine congrArg (Tm m c) (funext fun a => Fin.ext ?_)
  match a with
  | ⟨0, _⟩ => show win0_0.index t (0 : Fin 2) * 2048 + 1 * r.val = 2048 * (t.val / 32) + r.val; rw [e0]; omega
  | ⟨1, _⟩ => show win0_0.index t (1 : Fin 2) * 512 + 1 * k.val = 512 * (t.val % 32) + k.val; rw [e1]; omega

/-- The value rows the point multiplies, at (k, d). -/
theorem vchunk_at (c : Dev nD) (t : Fin cfg0.N) (k : Fin 512) (d : Fin 64) :
    vchunk (grid0.coords t) (iblk m c 1 t) (ix2 k d) = Wm m c (ix2 (tileCol t k) d) := by
  obtain ⟨-, -, e2, e3, -, -, e6, e7⟩ := idx_facts t
  unfold vchunk iblk
  show ((cfg0.win 1).blk t).view.read (Elt Ideal) (V m c (Pipeline.arrRef spec0 1))
    ((Rect.unit (s := S16384x64) (k0_off1 (grid0.coords t)) S512x64.size (k0_off1_inb (grid0.coords t))).toLoadRect.idx (ix2 k d)) = _
  rw [View.read_apply]
  show Wm m c _ = Wm m c _
  refine congrArg (Wm m c) (funext fun a => Fin.ext ?_)
  match a with
  | ⟨0, _⟩ =>
    show win0_1.index t (0 : Fin 2) * 16384 + 1 * (k0_off1 (grid0.coords t) (0 : Fin 2) + 1 * k.val) = 512 * (t.val % 32) + k.val
    rw [e2, e6]; omega
  | ⟨1, _⟩ =>
    show win0_1.index t (1 : Fin 2) * 64 + 1 * (k0_off1 (grid0.coords t) (1 : Fin 2) + 1 * d.val) = d.val
    rw [e3, e7]; omega

/-- A block of output contents X that agrees with a whole-array function Gf at the rows the point owns is the
    point's block of Gf. -/
theorem blk2_read (t : Fin cfg0.N) (Gf : SW.Idx → EReal) (X : Vec Ideal S2048x64 .f32)
    (h : ∀ (r : Fin 2048) (d : Fin 64), X (ix2 r d) = Gf (ix2 (tileRow t r) d)) :
    (cfg0.win 2).cut (grid0.coords t) X = ((cfg0.win 2).blk t).view.read (Elt Ideal) Gf := by
  obtain ⟨-, -, -, -, e4, e5, -⟩ := idx_facts t
  funext y
  have hy0 : (y 0).val < 2048 := (y 0).isLt
  have hy1 : (y 1).val < 64 := (y 1).isLt
  show X y = Gf (((cfg0.win 2).blk t).view.emb y)
  have e1 : (y : S2048x64.Idx) = ix2 (⟨(y 0).val, hy0⟩ : Fin 2048) (⟨(y 1).val, hy1⟩ : Fin 64) :=
    funext fun a => Fin.ext (by match a with | ⟨0, _⟩ => rfl | ⟨1, _⟩ => rfl)
  have e2 : ((cfg0.win 2).blk t).view.emb y = ix2 (tileRow t ⟨(y 0).val, hy0⟩) (⟨(y 1).val, hy1⟩ : Fin 64) :=
    funext fun a => Fin.ext (by
      match a with
      | ⟨0, _⟩ => show win0_2.index t (0 : Fin 2) * 2048 + 1 * (y 0).val = 2048 * (t.val / 32) + (y 0).val; rw [e4]; omega
      | ⟨1, _⟩ => show win0_2.index t (1 : Fin 2) * 64 + 1 * (y 1).val = (y 1).val; rw [e5]; omega)
  rw [e2, ← h]
  exact congrArg X e1

/-- An index of the result is in point t's block iff each coordinate is in the block's range on its axis. -/
theorem mem_blk2 (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v8).slice (win0_2.rect t)).set ↔ _
  rw [View.set_slice_whole, Rect.mem_set_unit]
  exact Iff.rfl

/-- THE COVER: row i 0 of the result is written back by the last point of its row tile. -/
theorem cover (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hlt : 32 * ((i 0).val / 2048) + 31 < cfg0.N := by rw [show cfg0.N = 256 from N_0]; omega
  obtain ⟨-, -, -, -, e4, e5, -⟩ := idx_facts ⟨32 * ((i 0).val / 2048) + 31, hlt⟩
  have e4' : win0_2.index ⟨32 * ((i 0).val / 2048) + 31, hlt⟩ (0 : Fin 2) = (32 * ((i 0).val / 2048) + 31) / 32 := e4
  refine ⟨⟨32 * ((i 0).val / 2048) + 31, hlt⟩, (flush0_2 _).mpr (by show (32 * ((i 0).val / 2048) + 31) % 32 = 31; omega), ?_⟩
  rw [mem_blk2]
  intro a
  match a with
  | ⟨0, _⟩ =>
    show win0_2.index ⟨32 * ((i 0).val / 2048) + 31, hlt⟩ (0 : Fin 2) * 2048 ≤ (i 0).val
      ∧ (i 0).val < win0_2.index ⟨32 * ((i 0).val / 2048) + 31, hlt⟩ (0 : Fin 2) * 2048 + 2048
    rw [e4']; omega
  | ⟨1, _⟩ =>
    show win0_2.index ⟨32 * ((i 0).val / 2048) + 31, hlt⟩ (1 : Fin 2) * 64 ≤ (i 1).val
      ∧ (i 1).val < win0_2.index ⟨32 * ((i 0).val / 2048) + 31, hlt⟩ (1 : Fin 2) * 64 + 64
    rw [e5]; omega

end Cert.KernelIdeal.Blocks

end
-- ==== Proof.KernelValue.lean ====
/-
  THE KERNEL'S VALUE. After grid point t = 32·I + j, row r of the three carried buffers holds the accumulation of row
  2048·I + r of the logits over its first 512·(j + 1) columns: by recursion on the point, from the reset at j = 0. After
  the last column tile the point writes back numerator over denominator, which is the softmax-weighted sum of the
  value columns; those eight blocks cover the result. All of this for logits and values that are real numbers; the
  values are the rows of the embedding table the index argument names, so they are real when the table is.
-/
import proofs.«167978_j78288663872186_2_alg».proof.Proof.TileStep
import proofs.«167978_j78288663872186_2_alg».proof.Proof.KernelBlocks
import Idealize.ShloMosaic.Lib.StableHlo.Run

set_option maxRecDepth 16384

noncomputable section

namespace Cert.KernelIdeal.SoftmaxValue

open Cert.KernelIdeal Cert.KernelIdeal.Gen Cert.KernelIdeal.Pieces Cert.KernelIdeal.TileStep Cert.KernelIdeal.Blocks
open Cert.OnlineSoftmax Cert.SoftmaxSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The point's logits and value rows as real entries of the row and the columns. -/
theorem hx_of (c : Dev nD) (hT : IsFinite (Tm m c)) (t : Fin cfg0.N) (r : Fin 2048) (k : Fin 512) :
    (iblk m c 0 t : Vec Ideal S2048x512 .f32) (ix2 r k)
      = ((xrow (Tm m c) (tileRow t r) (512 * (t.val % 32) + k.val) : ℝ) : EReal) := by
  rw [iblk0_at]; exact T_at hT (tileRow t r) _ (tileCol t k).isLt

theorem hv_of (c : Dev nD) (hW : IsFinite (Wm m c)) (t : Fin cfg0.N) (k : Fin 512) (d : Fin 64) :
    vchunk (grid0.coords t) (iblk m c 1 t) (ix2 k d)
      = ((vcol (Wm m c) d (512 * (t.val % 32) + k.val) : ℝ) : EReal) := by
  rw [vchunk_at]; exact W_at hW d _ (tileCol t k).isLt

/-- WHAT THE CARRIED BUFFERS HOLD after point n: every row at its accumulation over the first 512·(n % 32 + 1) columns. -/
def PointInv (c : Dev nD) (n : ℕ) (hn : n < cfg0.N) : Prop :=
  ∀ r : Fin 2048, RowInv (xrow (Tm m c) (tileRow ⟨n, hn⟩ r)) (vcol (Wm m c)) (512 * (n % 32 + 1))
    ((outsAt0 m c n hn).2.1 (ix2 r (0 : Fin 1))) ((outsAt0 m c n hn).2.2.1 (ix2 r (0 : Fin 1)))
    (fun d => (outsAt0 m c n hn).2.2.2 (ix2 r d))

/-- The first point of a row tile. -/
theorem stepA (c : Dev nD) (hT : IsFinite (Tm m c)) (hW : IsFinite (Wm m c)) (t : Fin cfg0.N) (h0 : t.val % 32 = 0) :
    PointInv m c t.val t.isLt := by
  intro r
  have h1 : ¬t.val % 32 = 31 := by omega
  have e : 512 * (t.val % 32 + 1) = 512 := by rw [h0]
  rw [e, outsAt0_A m c t h0 h1]
  dsimp only
  exact rowA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h))
    (iblk m c 0 t) (iblk m c 1 t) (xrow (Tm m c) (tileRow t r)) (vcol (Wm m c)) r
    (fun k => by rw [hx_of m c hT t r k, h0, Nat.mul_zero])
    (fun k d => by rw [hv_of m c hW t k d, h0, Nat.mul_zero])

/-- Any other point, from the point before. -/
theorem stepBC (c : Dev nD) (hT : IsFinite (Tm m c)) (hW : IsFinite (Wm m c)) (t : Fin cfg0.N) (h0 : ¬t.val % 32 = 0)
    (ih : PointInv m c (t.val - 1) (Nat.lt_of_le_of_lt (Nat.sub_le _ _) t.isLt)) : PointInv m c t.val t.isLt := by
  intro r
  have hpos : 0 < t.val := by omega
  have erow : tileRow ⟨t.val - 1, Nat.lt_of_le_of_lt (Nat.sub_le _ _) t.isLt⟩ r = tileRow t r :=
    Fin.ext (by show 2048 * ((t.val - 1) / 32) + r.val = 2048 * (t.val / 32) + r.val; omega)
  have en : 512 * ((t.val - 1) % 32 + 1) = 512 * (t.val % 32) := by omega
  have e2 : 512 * (t.val % 32) + 512 = 512 * (t.val % 32 + 1) := by omega
  have ih' := ih r
  rw [erow, en] at ih'
  by_cases h1 : t.val % 32 = 31
  ·
    rw [outsAt0_C m c t h0 h1]
    dsimp only
    have key := rowC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
      (xrow (Tm m c) (tileRow t r)) (vcol (Wm m c)) (512 * (t.val % 32)) r
      (fun k => hx_of m c hT t r k) (fun k d => hv_of m c hW t k d) ih'
    rw [e2] at key
    exact key
  ·
    rw [outsAt0_B m c t h0 h1]
    dsimp only
    have key := rowB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h))
      (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
      (xrow (Tm m c) (tileRow t r)) (vcol (Wm m c)) (512 * (t.val % 32)) r
      (fun k => hx_of m c hT t r k) (fun k d => hv_of m c hW t k d) ih'
    rw [e2] at key
    exact key

/-- … so after every point. -/
theorem inv (c : Dev nD) (hT : IsFinite (Tm m c)) (hW : IsFinite (Wm m c)) : ∀ (n : ℕ) (hn : n < cfg0.N), PointInv m c n hn
  | 0, hn => stepA m c hT hW ⟨0, hn⟩ rfl
  | n + 1, hn =>
    if h0 : (n + 1) % 32 = 0 then stepA m c hT hW ⟨n + 1, hn⟩ h0
    else stepBC m c hT hW ⟨n + 1, hn⟩ h0 (inv c hT hW n (Nat.lt_of_succ_lt hn))

/-- WHAT THE LAST POINT OF A ROW TILE WRITES BACK is its block of the specification. -/
theorem flushed_eq (c : Dev nD) (hT : IsFinite (Tm m c)) (hW : IsFinite (Wm m c)) (t : Fin cfg0.N)
    (hf : (cfg0.win 2).flush t = true) :
    (dats m 0 c).flushed 2 t = ((cfg0.win 2).blk t).view.read (Elt Ideal) (G (Tm m c) (Wm m c)) := by
  have h1 : t.val % 32 = 31 := (flush0_2 t).mp hf
  have h0 : ¬t.val % 32 = 0 := by omega
  rw [Cert.KernelIdeal.Value.flushed2_C m c t h0 h1]
  refine blk2_read t (G (Tm m c) (Wm m c)) _ fun r d => ?_
  rw [outC, G_at]
  have hI := inv m c hT hW t.val t.isLt r
  rw [outsAt0_C m c t h0 h1] at hI
  dsimp only at hI
  have q := RowInv.quotient (by omega) hI d
  have en : 512 * (t.val % 32 + 1) = 16384 := by omega
  rw [en] at q
  exact q

/-- THE RESULT ARRAY after the run. -/
theorem final (c : Dev nD) (hT : IsFinite (Tm m c)) (hW : IsFinite (Wm m c)) :
    (dats m 0 c).arrAt 2 cfg0.N = G (Tm m c) (Wm m c) :=
  (dats m 0 c).arrAt_eq_of_cover 2 (G (Tm m c) (Wm m c)) (fun t hf => flushed_eq m c hT hW t hf) cover

/-- The value matrix: the rows of the table x1 that the index argument x0 names (a negative index counted from the end). -/
def gathered (x0 : IVec S16384 32) (x1 : FVec Ideal S16384x64 .f32) : SW.Idx → EReal :=
  Host.gather gather_S16384x64_S16384x1_S16384x64_1_0_n_n_0_1_164 x1
    (broadcastInDim S16384x1 ![0] bcast_S16384_S16384x1_0
      (select (cmpi .slt x0 (broadcastInDim S16384 ![] bcast_S_S16384 (constantI S_ 32 0#32)))
        (addi x0 (broadcastInDim S16384 ![] bcast_S_S16384 (constantI S_ 32 16384#32))) x0))

/-- Each of its entries is an entry of the table. -/
theorem gathered_finite (x0 : IVec S16384 32) (x1 : FVec Ideal S16384x64 .f32) (h1 : ∀ j, x1 j ≠ ⊤ ∧ x1 j ≠ ⊥) :
    IsFinite (gathered x0 x1) := fun j => h1 _

/-- The region finds the value matrix at the gathered rows (the change of format is the identity), and the logits as launched. -/
theorem Wm_eq (c : Dev nD) :
    Wm m c = gathered (m ((c : Thread nD τ).loc main_arg0)) (m ((c : Thread nD τ).loc main_arg1)) := by
  show (V m c main_v7 : SW.Idx → EReal) = _
  dsimp only [Gen.V, Gen.hostOps0]
  after_results
  rfl

theorem Tm_eq (c : Dev nD) : Tm m c = m ((c : Thread nD τ).loc main_arg2) := V_main_arg2 m c

/-- THE RUN: for real logits and a real table, the result array ends at the specification of the logits and the gathered rows. -/
theorem run (hfin : ∀ c : Dev nD, IsFinite (Tm m c) ∧ IsFinite (Wm m c)) :
    θ_run defs (onTc (τ := τ) (main (F := Ideal))) ⟨m, fun _ => 0, ρ⟩ fun r => ∀ c : Dev nD,
      r.2.mem ((c : Thread nD τ).loc main_v8) = G (Tm m c) (Wm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2), (h c).2⟩)
    (Cert.KernelIdeal.Value.run_blocks m ρ)

end Cert.KernelIdeal.SoftmaxValue

end
-- ==== Proof.ReferenceValue.lean ====
/-
  THE REFERENCE'S VALUE. It subtracts each row's maximum from the row, exponentiates, divides by the row's sum and multiplies
  by the gathered rows of the table. For logits that are real the row maximum is a real, and entry (i, d) of the product is
  the softmax of row i weighted over column d of the gathered rows: the specification.
-/
import proofs.«167978_j78288663872186_2_alg».proof.Proof.Gen.ReferenceIdeal.Read
import proofs.«167978_j78288663872186_2_alg».proof.Proof.SoftmaxSpec

noncomputable section

namespace Cert.ReferenceIdeal.RefValue

open Cert.ReferenceIdeal Cert.ReferenceIdeal.Gen Cert.ReferenceIdeal.Read Cert.SoftmaxSpec Cert.OnlineSoftmax
open Idealize.ShloMosaic Idealize.ShloMosaic.ValueIdx

/-- The maximum reduction starts from the pattern of -∞, which is not +∞. -/
theorem start_ne_top : Ideal.ofBits .f32 0xFF800000#32 ≠ ⊤ := by
  have h : Ideal.ofBits .f32 0xFF800000#32 = ⊥ := by simp [Ideal.ofBits, Ideal.ieee]
  rw [h]; exact bot_ne_top

/-- The row maximum the reference subtracts is a real number. -/
theorem rowmax_real (x2 : FVec Ideal S16384x16384 .f32) (hT : IsFinite x2) (i : Fin 16384) :
    ∃ Mr : ℝ, val_main_v9 (F := Ideal) x2 (ix1 i) = (Mr : EReal) := by
  have hred : S16384x16384.Reduces [1] S16384 := by decide
  obtain ⟨Mb, hMb⟩ := fold_max_real (n := 16384) (by decide) (Ideal.ofBits .f32 0xFF800000#32) start_ne_top
    ((x2 : S16384x16384.Idx → EReal) ∘ hred.lift (ix1 i)) (fun k => ⟨_, (EReal.coe_toReal (hT _).1 (hT _).2).symm⟩)
  refine ⟨Mb, ?_⟩
  rw [val_main_v9_apply, val_main_v8_apply, val_main_cst_1_apply]
  unfold val_main_v7
  rw [Host.reduce_eq_fold_single FloatOps.maximumf x2 _ reducesTo_S16384x16384_S16384_d1 hred h_S_]
  show max (Ideal.ofBits .f32 0xFF800000#32)
    ((Finset.univ : Finset (Fin 16384)).fold max (Ideal.ofBits .f32 0xFF800000#32) ((x2 : S16384x16384.Idx → EReal) ∘ hred.lift (ix1 i))) = _
  exact (max_eq_right ((Finset.le_fold_max _).mpr (Or.inl le_rfl))).trans hMb

/-- THE REFERENCE IS THE SPECIFICATION of the logits and the rows it gathers. -/
theorem reference_eq (x0 : IVec S16384 32) (x1 : FVec Ideal S16384x64 .f32) (x2 : FVec Ideal S16384x16384 .f32)
    (hT : IsFinite (x2 : ST.Idx → EReal)) (hW : IsFinite (val_main_v6 (F := Ideal) x0 x1 : SW.Idx → EReal)) :
    val_main_v18 (F := Ideal) x0 x1 x2 = G x2 (val_main_v6 (F := Ideal) x0 x1) := by
  funext j
  obtain ⟨i, d, rfl⟩ : ∃ (i : Fin 16384) (d : Fin 64), j = ix2 i d := ⟨j 0, j 1, eq_ix2 j⟩
  obtain ⟨Mr, hMr⟩ := rowmax_real x2 hT i
  rw [val_main_v18_apply, G_at]
  have hl : ∀ k : Fin 16384, lidx_main_v18 (ix2 i d) k = ix2 i k := fun k => funext fun a => Fin.ext (by match a with | ⟨0, _⟩ => rfl | ⟨1, _⟩ => rfl)
  have hr : ∀ k : Fin 16384, ridx_main_v18 (ix2 i d) k = ix2 k d := fun k => funext fun a => Fin.ext (by match a with | ⟨0, _⟩ => rfl | ⟨1, _⟩ => rfl)
  have h13 : ∀ k : Fin 16384, val_main_v13 (F := Ideal) x2 (ix2 i k) = Ideal.exp (x2 (ix2 i k) - (Mr : EReal)) := fun k => by
    have e : idx_main_v10 (idx_main_v11 (ix2 i k)) = ix1 i := funext fun a => Fin.ext (by match a with | ⟨0, _⟩ => rfl)
    rw [val_main_v13_apply, val_main_v12_apply, val_main_v11_apply, val_main_v10_apply, e, hMr]
    rfl
  have h16 : ∀ k : Fin 16384, val_main_v16 (F := Ideal) x2 (ix2 i k)
      = val_main_cst_2 (F := Ideal) (Shape.Idx.first h_S_) + ∑ k' : Fin 16384, Ideal.exp (x2 (ix2 i k') - (Mr : EReal)) := fun k => by
    have e : idx_main_v15 (idx_main_v16 (ix2 i k)) = ix1 i := funext fun a => Fin.ext (by match a with | ⟨0, _⟩ => rfl)
    rw [val_main_v16_apply, val_main_v15_apply, e, val_main_v14_apply]
    refine congrArg (_ + ·) (Finset.sum_congr rfl fun k' _ => ?_)
    have e' : idx_main_v14 (ix1 i) k' = ix2 i k' := funext fun a => Fin.ext (by match a with | ⟨0, _⟩ => rfl | ⟨1, _⟩ => rfl)
    rw [e', h13]
  have hterm : ∀ k : Fin 16384,
      val_main_v17 (F := Ideal) x2 (lidx_main_v18 (ix2 i d) k) * val_main_v6 (F := Ideal) x0 x1 (ridx_main_v18 (ix2 i d) k)
        = Ideal.div (Ideal.exp (x2 (ix2 i k) - (Mr : EReal)))
            (val_main_cst_2 (F := Ideal) (Shape.Idx.first h_S_) + ∑ k' : Fin 16384, Ideal.exp (x2 (ix2 i k') - (Mr : EReal)))
          * val_main_v6 (F := Ideal) x0 x1 (ix2 k d) := fun k => by
    rw [hl, hr, val_main_v17_apply, h13, h16]
    rfl
  rw [Finset.sum_congr rfl fun k _ => hterm k]
  exact reference_row (by decide) (xrow x2 i) (vcol (val_main_v6 (F := Ideal) x0 x1) d) Mr _ Ideal.ofBits_zero_f32
    (fun k => x2 (ix2 i k)) (fun k => val_main_v6 (F := Ideal) x0 x1 (ix2 k d))
    (fun k => by rw [Nat.zero_add]; exact T_at hT i k.val k.isLt)
    (fun k => by rw [Nat.zero_add]; exact W_at hW d k.val k.isLt)

end Cert.ReferenceIdeal.RefValue

end
-- ==== Proof.FiniteInputs.lean ====
/-
  What the precondition gives. It is printed as two reductions by `and`, one per float argument, of the entrywise test
  |x| < +∞, joined by an `and`; that it evaluates to all ones says that every entry of either argument is a real number.
-/
import proofs.«167978_j78288663872186_2_alg».proof.Pre_finite_inputs
import proofs.«167978_j78288663872186_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun a b => funext fun d => d.elim0⟩

/-- An extended real whose absolute value is below the pattern of +∞ is neither infinity. -/
theorem real_of_abs_lt (x : EReal)
    (h : FloatOps.cmpf (F := Ideal) (φ := .f32) .olt (FloatOps.hostAbsf x) (FloatOps.ofBits .f32 0x7F800000#32) = 1#1) :
    x ≠ ⊤ ∧ x ≠ ⊥ := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  constructor <;> rintro rfl <;> simp at h

/-- THE PRECONDITION READ: both float arguments hold reals everywhere. -/
theorem real_of_pre (a0 : IVec S16384 32) (a1 : FVec Ideal S16384x64 .f32) (a2 : FVec Ideal S16384x16384 .f32)
    (h : fn (F := Ideal) a0 a1 a2 = fun _ => 1#1) :
    (∀ j, a1 j ≠ ⊤ ∧ a1 j ≠ ⊥) ∧ (∀ j, a2 j ≠ ⊤ ∧ a2 j ≠ ⊥) := by
  have h0 := congrFun h ValueIdx.ix0
  dsimp only [fn] at h0
  obtain ⟨h3, h7⟩ := IntOp.andi_eq_one.mp h0
  exact ⟨fun j => real_of_abs_lt _ (Host.reduce_andi_all _ _ _ _ _ h3 j),
    fun j => real_of_abs_lt _ (Host.reduce_andi_all _ _ _ _ _ h7 j)⟩

end Cert.FiniteInputs

end
-- ==== Proof.lean ====
/-
  A row softmax of a 16384 × 16384 array of logits T, multiplied into the rows of an embedding table that an index
  argument names, computed two ways.

  The kernel walks each tile of 2048 rows across 32 tiles of 512 columns, carrying per row a running maximum m, a running
  denominator l = Σ exp (T - m) and, per output column, a running numerator a = Σ exp (T - m) · v; each step rescales l and a
  by exp (m - m') for the new maximum m' and adds the tile's terms; after the last tile it stores a / l. The reference subtracts
  each row's maximum, exponentiates, divides by the row sum and takes one matrix product with the gathered rows.

  On the extended reals, for logits and a table that hold real numbers (the precondition), both are
      Σ_k exp (T i k) / (Σ_k' exp (T i k')) · v k d :
  a quotient of numerator by denominator does not depend on the shift subtracted inside the exponentials, so neither the
  kernel's running maximum nor the reference's row maximum needs to be known beyond being a real number; and the gathered
  rows are the same term of the arguments in both programs, real because every one of them is an entry of the table.
  The three frames are the generated ones (the reference's is its generated run with the result dropped); the idealization
  rewrote nothing.
-/
import proofs.«167978_j78288663872186_2_alg».proof.Defs
import proofs.«167978_j78288663872186_2_alg».proof.Proof.Gen.Kernel
import proofs.«167978_j78288663872186_2_alg».proof.Proof.Gen.Kernel.Frame
import proofs.«167978_j78288663872186_2_alg».proof.Proof.Gen.KernelIdeal
import proofs.«167978_j78288663872186_2_alg».proof.Proof.Gen.KernelIdeal.Frame
import proofs.«167978_j78288663872186_2_alg».proof.Proof.Gen.KernelIdeal.Value
import proofs.«167978_j78288663872186_2_alg».proof.Proof.Gen.ReferenceIdeal
import proofs.«167978_j78288663872186_2_alg».proof.Proof.Gen.ReferenceIdeal.Run
import proofs.«167978_j78288663872186_2_alg».proof.Proof.Gen.ReferenceIdeal.Read
import proofs.«167978_j78288663872186_2_alg».proof.Proof.Gen.Pre_finite_inputs
import proofs.«167978_j78288663872186_2_alg».proof.Proof.KernelValue
import proofs.«167978_j78288663872186_2_alg».proof.Proof.ReferenceValue
import proofs.«167978_j78288663872186_2_alg».proof.Proof.FiniteInputs
import Idealize.ShloMosaic.Adequacy
import Idealize.ShloMosaic.Init

noncomputable section

namespace Cert.Proof

open Idealize.ShloMosaic Idealize.SL.Sem
open Cert.SoftmaxSpec Cert.KernelIdeal.Blocks Cert.KernelIdeal.SoftmaxValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification of the logits and the gathered rows of the table. -/
theorem algebraic : Cert.algebraic_KernelIdeal_ReferenceIdeal := by
  intro m ρ m' ρ' hpre hagree
  have hreal := fun c => Cert.FiniteInputs.real_of_pre _ _ _ (hpre c)
  have hfin : ∀ c : Dev Cert.KernelIdeal.nD, IsFinite (Tm m c) ∧ IsFinite (Wm m c) := fun c => by
    rw [Tm_eq, Wm_eq]
    exact ⟨(hreal c).2, gathered_finite _ _ (hreal c).1⟩
  refine ⟨fun c => G (Tm m c) (Wm m c), Cert.KernelIdeal.SoftmaxValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2,
    Cert.ReferenceIdeal.RefValue.reference_eq _ _ _ (hreal c).2 (fun j => (hreal c).1 _)]
  show _ = G (Tm m c) (Wm m c)
  rw [Tm_eq, Wm_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
